-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x8192 : Shape := ⟨2, ![8192, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4096x8192 .f32) (main_arg1 : FVec F S8192x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S4096x8192 : Shape := ⟨2, ![4096, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S4096x8192, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x8192.size a
  hwx0_0 : ∀ i : grid0.Coords, EltTy.bits .f32 = 32 ∨ (Rect.block (s := S4096x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .f32 = 32 ∨ (Rect.block (s := S4096x8192) S1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x8192_S8192x8192_S4096x8192_1_0_0_1_n_n_wf : DotDims.WF S4096x8192 S8192x8192 S4096x8192 [1] [0] [0] [1] [] []

variable [Facts₀]

def dot_S4096x8192_S8192x8192_S4096x8192_1_0_0_1_n_n : DotDims S4096x8192 S8192x8192 S4096x8192 where
  lhsContracting := [1]
  rhsContracting := [0]
  lhsNonContracting := [0]
  rhsNonContracting := [1]
  lhsBatch := []
  rhsBatch := []
  wf := dot_S4096x8192_S8192x8192_S4096x8192_1_0_0_1_n_n_wf

class Facts : Prop extends Facts₀ where

variable [Facts]
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.MatProduct.lean ====
/-
  The mathematics both programs compute: the product of a [4096, 8192] matrix with an [8192, 8192] matrix over the
  extended reals, entry by entry, and the one law that relates the two ways of summing it.

  Entry (r, c) of the product is the sum over the 8192 contraction coordinates k of x(r, k) · p(k, c). Cutting the
  contraction axis into four consecutive blocks of 2048 coordinates, the entry is the sum of the four blocks' partial
  sums. Only commutativity and associativity of addition are used, which hold on the extended reals with no
  finiteness assumption: nothing here distributes a product over a sum or cancels anything.
-/
import Idealize.ShloMosaic.PureOps.Ideal
import Idealize.ShloMosaic.Lib.ValueIdx
import proofs.«129398_j36318243455052_1_alg».proof.Proof.LibUnitAxisSums

noncomputable section

open scoped BigOperators

namespace Cert.MatProduct

open Idealize.ShloMosaic Idealize.ShloMosaic.ValueIdx

/-- A left operand: a [4096, 8192] array of extended reals. -/
abbrev Lhs : Type := (⟨2, ![4096, 8192]⟩ : Shape).Idx → EReal
/-- A right operand: an [8192, 8192] array of extended reals. -/
abbrev Rhs : Type := (⟨2, ![8192, 8192]⟩ : Shape).Idx → EReal

/-- Contraction coordinate `q` of block `b`: the blocks are consecutive runs of 2048 coordinates. -/
def kAt (b : Fin 4) (q : Fin 2048) : Fin 8192 :=
  ⟨2048 * b.val + q.val, by have := b.isLt; have := q.isLt; omega⟩

theorem kAt_val (b : Fin 4) (q : Fin 2048) : (kAt b q).val = 2048 * b.val + q.val := rfl

/-- The matrix product: entry `j = (r, c)` is `∑ k, x (r, k) * p (k, c)`. -/
def product (x : Lhs) (p : Rhs) : (⟨2, ![4096, 8192]⟩ : Shape).Idx → EReal :=
  fun j => ∑ k : Fin 8192, x (ix2 (j 0) k) * p (ix2 k (j 1))

/-- The part of entry `(r, c)` that block `b` of the contraction axis contributes. -/
def part (x : Lhs) (p : Rhs) (r : Fin 4096) (c : Fin 8192) (b : Fin 4) : EReal :=
  ∑ q : Fin 2048, x (ix2 r (kAt b q)) * p (ix2 (kAt b q) c)

/-- An entry of the product is the sum of its four blocks' parts. -/
theorem product_eq_parts (x : Lhs) (p : Rhs) (j : (⟨2, ![4096, 8192]⟩ : Shape).Idx) :
    product x p j = ∑ b : Fin 4, part x p (j 0) (j 1) b :=
  sum_fin_blocks 4 2048 (fun k : Fin 8192 => x (ix2 (j 0) k) * p (ix2 k (j 1)))

end Cert.MatProduct

end
-- ==== Proof.Pieces.lean ====
/-
  What one run of the kernel body leaves behind, case by case, as a value.

  The body keeps a [1024, 1024] accumulator in a scratch buffer. At a first step of a contraction run (k = 0) it stores
  the zero block there and then replaces it by "what the scratch holds + x-block · p-block"; at a middle step (k = 1, 2)
  and at the last step (k = 3) it only does the replacement; at the last step it also copies the scratch into the output
  block. Every store covers its whole buffer and every load reads a whole buffer, so what a buffer holds afterwards is the
  value of the last store into it: in each case the scratch ends at `step x0 x1 acc`, the accumulation step applied
  to the input blocks and to what the scratch held (the zero block at a first step), and at the last step the output
  block ends at that same value. These statements hold for any reading of the float operations.
-/
import proofs.«129398_j36318243455052_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of a store or load that starts at the buffer's origin. -/
theorem hz : (![0, 0] : Fin 2 → Nat) = fun _ => 0 := funext fun a => by fin_cases a <;> rfl

/-- The accumulation step: the accumulator block plus the product of the x-block with the p-block (the body's one
    arithmetic payload). -/
abbrev step (x0 : Vec F S1024x2048 .f32) (x1 : Vec F S2048x1024 .f32) (acc : Vec F S1024x1024 .f32) : Vec F S1024x1024 .f32 :=
  k0_pay2 x0 x1 acc

/-- The zero block a first step stores before accumulating. -/
abbrev zeroBlock : Vec F S1024x1024 .f32 := k0_pay1

/-- A first step (k = 0) leaves the scratch at the step applied to the zero block: the zero store is overwritten, and
    the accumulator the step reads is that zero block read back. -/
theorem scratch_first (c : Dev nD) (i : grid0.Coords) (arg3 : Memref sig .tc .vmem S1024x2048 .f32) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x2048 .f32) (x1 : Vec F S2048x1024 .f32) :
    sout0_A_0 c i arg3 harg3 arg4 harg4 arg5 harg5 arg6 harg6 hc0 hc1 x0 x1 = step x0 x1 zeroBlock := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg6.read_unread, View.ld_unit_zero (S := S1024x2048) hz, View.ld_unit_zero (S := S2048x1024) hz, View.ld_unit_zero (S := S1024x1024) hz]

/-- A middle step (k = 1, 2) leaves the scratch at the step applied to what it held. -/
theorem scratch_middle (c : Dev nD) (i : grid0.Coords) (arg3 : Memref sig .tc .vmem S1024x2048 .f32) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x2048 .f32) (x1 : Vec F S2048x1024 .f32) (acc : Vec F S1024x1024 .f32) :
    sout0_B_0 c i arg3 harg3 arg4 harg4 arg5 harg5 arg6 harg6 hc0 hc1 x0 x1 acc = step x0 x1 acc := by
  unfold sout0_B_0
  rw [View.read_writes_eq_canon _ _ _ (scover0_B_0 c i arg3 harg3 arg4 harg4 arg5 harg5 arg6 harg6 hc0 hc1 x0 x1 acc)]
  unfold kernelRun0_B
  dsimp only
  rw [View.canon_unit_zero hz]
  simp only [View.readAt_eq_ld, harg3.read_unread, harg4.read_unread, harg6.read_unread, View.ld_unit_zero (S := S1024x2048) hz, View.ld_unit_zero (S := S2048x1024) hz, View.ld_unit_zero (S := S1024x1024) hz]

/-- The last step (k = 3) leaves the scratch at the step applied to what it held, -/
theorem scratch_last (c : Dev nD) (i : grid0.Coords) (arg3 : Memref sig .tc .vmem S1024x2048 .f32) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .f32) (x1 : Vec F S2048x1024 .f32) (acc : Vec F S1024x1024 .f32) :
    sout0_C_0 c i arg3 harg3 arg4 harg4 arg5 harg5 arg6 harg6 hc0 hc1 x0 x1 acc = step x0 x1 acc := by
  unfold sout0_C_0
  rw [View.read_writes_eq_canon _ _ _ (scover0_C_0 c i arg3 harg3 arg4 harg4 arg5 harg5 arg6 harg6 hc0 hc1 x0 x1 acc)]
  unfold kernelRun0_C
  dsimp only
  sl_unfold_words
  rw [View.canon_unit_zero hz]
  simp only [View.readAt_eq_ld, harg3.read_unread, harg4.read_unread, harg6.read_unread, View.ld_unit_zero (S := S1024x2048) hz, View.ld_unit_zero (S := S2048x1024) hz, View.ld_unit_zero (S := S1024x1024) hz]

/-- and the output block at that same value: it is the scratch, read back after the step's store and stored whole. -/
theorem output_last (c : Dev nD) (i : grid0.Coords) (arg3 : Memref sig .tc .vmem S1024x2048 .f32) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x2048 .f32) (x1 : Vec F S2048x1024 .f32) (acc : Vec F S1024x1024 .f32) :
    out0_C_2 c i arg3 harg3 arg4 harg4 arg5 harg5 arg6 harg6 hc0 hc1 x0 x1 acc = step x0 x1 acc := by
  unfold out0_C_2
  rw [View.read_writes_eq_canon _ _ _ (cover0_C_2 c i arg3 harg3 arg4 harg4 arg5 harg5 arg6 harg6 hc0 hc1 x0 x1 acc)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x2048) hz, View.ld_unit_zero (S := S2048x1024) hz, View.ld_unit_zero (S := S1024x1024) hz]

end Cert.KernelIdeal.Pieces

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Payload.lean ====
/-
  The body's arithmetic at the ideal values, read at one entry of a [1024, 1024] block.

  At the ideal values a change of float format is the identity and the matrix unit's product into a zero accumulator is
  the exact sum of products, so the accumulation step adds to the accumulator's entry (r, c) the sum, over the 2048
  contraction coordinates k of the two blocks, of x0 (r, k) · x1 (k, c); and the zero block is 0 at every entry.
-/
import proofs.«129398_j36318243455052_1_alg».proof.Proof.Gen.KernelIdeal.Skeleton
import proofs.«129398_j36318243455052_1_alg».proof.Proof.LibRowColDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The kept coordinate of the left operand's index is the output's row. -/
theorem lhs_row (j : S1024x1024.Idx) (q : dot_S1024x2048_S2048x1024_S1024x1024_1_0_0_1_n_n.contr.Idx) :
    (dot_S1024x2048_S2048x1024_S1024x1024_1_0_0_1_n_n.lhsIdx j q 0).val = (j 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl

/-- The kept coordinate of the right operand's index is the output's column. -/
theorem rhs_col (j : S1024x1024.Idx) (q : dot_S1024x2048_S2048x1024_S1024x1024_1_0_0_1_n_n.contr.Idx) :
    (dot_S1024x2048_S2048x1024_S1024x1024_1_0_0_1_n_n.rhsIdx j q 1).val = (j 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The zero block is 0 at every entry. -/
theorem zero_apply (y : S1024x1024.Idx) : k0_pay1 (F := Ideal) y = 0 := by
  unfold k0_pay1
  refine (congrFun (shapeCast_self _ _) y).trans ?_
  exact Ideal.ofBits_zero_f32

/-- The accumulation step at entry `y = (r, c)`: the accumulator's entry plus `∑ k, x0 (r, k) * x1 (k, c)`. -/
theorem step_apply (x0 : Vec Ideal S1024x2048 .f32) (x1 : Vec Ideal S2048x1024 .f32) (acc : Vec Ideal S1024x1024 .f32)
    (y : S1024x1024.Idx) :
    k0_pay2 x0 x1 acc y = acc y + ∑ k : Fin 2048, x0 (ix2 (y 0) k) * x1 (ix2 k (y 1)) := by
  unfold k0_pay2
  refine (congrFun (shapeCast_self _ _) y).trans ?_
  refine congrArg (acc y + ·) ?_
  exact Cert.RowColDot.matmul_rowcol dot_S1024x2048_S2048x1024_S1024x1024_1_0_0_1_n_n rfl rfl rfl rfl lhs_row rhs_col
    none (truncf .bf16 x0 bitsLt_bf16_f32) (truncf .bf16 x1 bitsLt_bf16_f32) y

end Cert.KernelIdeal.Payload

end
-- ==== Proof.Blocks.lean ====
/-
  Where the blocks of the three windows sit, at any grid point.

  The grid has 4 × 8 × 4 points, numbered with the last axis fastest: point t has row block t / 32, column block
  t / 4 % 8 and contraction block t % 4. At point t the x window is the [1024, 2048] block (t / 32, t % 4) of x, the
  p window the [2048, 1024] block (t % 4, t / 4 % 8) of p, and the output window the [1024, 1024] block
  (t / 32, t / 4 % 8) of the result. An element of a block sits in its array, on each axis, at the block index times
  the block's size plus its coordinate inside the block.
-/
import proofs.«129398_j36318243455052_1_alg».proof.Proof.Gen.KernelIdeal.Frame
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ)

/-- The printed index maps in closed form, decided once over the grid's 128 points. -/
theorem index_maps : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = t.val / 32 ∧ win0_2.index t (1 : Fin 2) = t.val / 4 % 8 :=
  (by decide +kernel : ∀ t : Fin grid0.N, _)

/-- The x window's block at point `t`, at `y`, is `x` at row `1024 (t / 32) + y₀` and column `2048 (t % 4) + y₁`. -/
theorem xblock_apply (c : Dev nD) (t : Fin cfg0.N) (y : S1024x2048.Idx) (j : S4096x8192.Idx)
    (h0 : (j 0).val = 1024 * (t.val / 32) + (y 0).val) (h1 : (j 1).val = 2048 * (t.val % 4) + (y 1).val) :
    (iblk m c 0 t : Vec F S1024x2048 .f32) y = m ((c : Thread nD τ).loc main_arg0) j := by
  obtain ⟨e0, e1, -⟩ := index_maps t
  show V m c main_arg0 (((cfg0.win 0).blk t).view.emb y) = V m c main_arg0 j
  refine congrArg (V m c main_arg0) ?_
  funext a; apply Fin.ext
  match a with
  | ⟨0, _⟩ => show win0_0.index t (0 : Fin 2) * 1024 + 1 * (y 0).val = (j 0).val; rw [e0, h0]; omega
  | ⟨1, _⟩ => show win0_0.index t (1 : Fin 2) * 2048 + 1 * (y 1).val = (j 1).val; rw [e1, h1]; omega

/-- The p window's block at point `t`, at `y`, is `p` at row `2048 (t % 4) + y₀` and column `1024 (t / 4 % 8) + y₁`. -/
theorem pblock_apply (c : Dev nD) (t : Fin cfg0.N) (y : S2048x1024.Idx) (j : S8192x8192.Idx)
    (h0 : (j 0).val = 2048 * (t.val % 4) + (y 0).val) (h1 : (j 1).val = 1024 * (t.val / 4 % 8) + (y 1).val) :
    (iblk m c 1 t : Vec F S2048x1024 .f32) y = m ((c : Thread nD τ).loc main_arg1) j := by
  obtain ⟨-, -, e2, e3, -⟩ := index_maps t
  show V m c main_arg1 (((cfg0.win 1).blk t).view.emb y) = V m c main_arg1 j
  refine congrArg (V m c main_arg1) ?_
  funext a; apply Fin.ext
  match a with
  | ⟨0, _⟩ => show win0_1.index t (0 : Fin 2) * 2048 + 1 * (y 0).val = (j 0).val; rw [e2, h0]; omega
  | ⟨1, _⟩ => show win0_1.index t (1 : Fin 2) * 1024 + 1 * (y 1).val = (j 1).val; rw [e3, h1]; omega

/-- An index of the result array is in point `t`'s output block iff each coordinate is in the block's range. -/
theorem mem_outblock (t : Fin cfg0.N) (i : S4096x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

end Cert.KernelIdeal.Blocks

end
-- ==== Proof.Fold.lean ====
/-
  The accumulator over a run of four grid points, at the ideal values.

  Grid point n works on row block n / 32, column block n / 4 % 8 and contraction block n % 4. Its step adds, to entry
  y = (y₀, y₁) of the [1024, 1024] accumulator, the part of the product's entry (1024 (n / 32) + y₀, 1024 (n / 4 % 8) + y₁)
  that contraction block n % 4 contributes: the point's addend. The four points 4q, 4q + 1, 4q + 2, 4q + 3 share their row
  and column blocks and run through the four contraction blocks; the first of them starts from the zero block. So after
  point t the scratch holds 0 plus the addends of the points 4 (t / 4) … t, and at the write-back point t ≡ 3 (mod 4)
  the output block, which is a copy of the scratch, holds the sum of the four parts: the product's entry.
-/
import proofs.«129398_j36318243455052_1_alg».proof.Proof.Gen.KernelIdeal.Value
import proofs.«129398_j36318243455052_1_alg».proof.Proof.MatProduct
import proofs.«129398_j36318243455052_1_alg».proof.Proof.Pieces
import proofs.«129398_j36318243455052_1_alg».proof.Proof.Payload
import proofs.«129398_j36318243455052_1_alg».proof.Proof.Blocks
import Idealize.ShloMosaic.Lib.Pipeline.Value

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- The left argument `x` on core `c`, as launched. -/
abbrev X (c : Dev nD) : Cert.MatProduct.Lhs := m ((c : Thread nD τ).loc main_arg0)
/-- The right argument `p` on core `c`, as launched. -/
abbrev P (c : Dev nD) : Cert.MatProduct.Rhs := m ((c : Thread nD τ).loc main_arg1)

/-- The result row that entry `y` of point `n`'s block is. -/
def rowAt (n : ℕ) (y : S1024x1024.Idx) : Fin 4096 :=
  ⟨1024 * (n / 32 % 4) + (y 0).val, by have h : (y 0).val < 1024 := (y 0).isLt; omega⟩
/-- The result column that entry `y` of point `n`'s block is. -/
def colAt (n : ℕ) (y : S1024x1024.Idx) : Fin 8192 :=
  ⟨1024 * (n / 4 % 8) + (y 1).val, by have h : (y 1).val < 1024 := (y 1).isLt; omega⟩
/-- The contraction block point `n` works on. -/
def blockAt (n : ℕ) : Fin 4 := ⟨n % 4, Nat.mod_lt _ (by decide)⟩

/-- Point `n`'s addend to entry `y` of the accumulator: the part of the product's entry its contraction block gives. -/
def addend (c : Dev nD) (n : ℕ) (y : S1024x1024.Idx) : EReal :=
  Cert.MatProduct.part (X m c) (P m c) (rowAt n y) (colAt n y) (blockAt n)

/-- The step at point `n`, on that point's input blocks: the accumulator's entry plus the point's addend. -/
theorem step_at_point (c : Dev nD) (n : ℕ) (hb : n < cfg0.N) (acc : Vec Ideal S1024x1024 .f32) (y : S1024x1024.Idx) :
    Pieces.step (iblk m c 0 ⟨n, hb⟩) (iblk m c 1 ⟨n, hb⟩) acc y = acc y + addend m c n y := by
  have hN : n < 128 := lt_of_lt_of_eq hb (show cfg0.N = 128 from N_0)
  refine (Payload.step_apply (iblk m c 0 ⟨n, hb⟩) (iblk m c 1 ⟨n, hb⟩) acc y).trans ?_
  refine congrArg (acc y + ·) ?_
  unfold addend Cert.MatProduct.part
  refine Finset.sum_congr rfl fun q _ => ?_
  rw [Blocks.xblock_apply m c ⟨n, hb⟩ (ix2 (y 0) q) (ix2 (rowAt n y) (Cert.MatProduct.kAt (blockAt n) q))
      (by show 1024 * (n / 32 % 4) + (y 0).val = 1024 * (n / 32) + (y 0).val; omega)
      (by show 2048 * (n % 4) + q.val = 2048 * (n % 4) + q.val; rfl),
    Blocks.pblock_apply m c ⟨n, hb⟩ (ix2 q (y 1)) (ix2 (Cert.MatProduct.kAt (blockAt n) q) (colAt n y))
      (by show 2048 * (n % 4) + q.val = 2048 * (n % 4) + q.val; rfl)
      (by show 1024 * (n / 4 % 8) + (y 1).val = 1024 * (n / 4 % 8) + (y 1).val; rfl)]

/-- At the first point of a run (n ≡ 0 mod 4) the scratch ends at the step over the zero block, whatever it held. -/
theorem scratch_at_first (c : Dev nD) (n : ℕ) (hb : n < cfg0.N) (h0 : n % 4 = 0) (acc : Vec Ideal S1024x1024 .f32) :
    Value.scAt0_0 m c n hb acc = Pieces.step (iblk m c 0 ⟨n, hb⟩) (iblk m c 1 ⟨n, hb⟩) Pieces.zeroBlock := by
  have h1 : ¬n % 4 = 3 := by omega
  unfold Value.scAt0_0
  rw [dif_pos h0, dif_neg h1]
  exact Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) _ _ (iblk m c 0 ⟨n, hb⟩) (iblk m c 1 ⟨n, hb⟩)

/-- At every later point of a run the scratch ends at the step over what it held. -/
theorem scratch_at_later (c : Dev nD) (n : ℕ) (hb : n < cfg0.N) (h0 : ¬n % 4 = 0) (acc : Vec Ideal S1024x1024 .f32) :
    Value.scAt0_0 m c n hb acc = Pieces.step (iblk m c 0 ⟨n, hb⟩) (iblk m c 1 ⟨n, hb⟩) acc := by
  unfold Value.scAt0_0
  by_cases h1 : n % 4 = 3
  · rw [dif_neg h0, dif_pos h1]
    exact Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) _ _ (iblk m c 0 ⟨n, hb⟩) (iblk m c 1 ⟨n, hb⟩) acc
  · rw [dif_neg h0, dif_neg h1]
    exact Pieces.scratch_middle (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) _ _ (iblk m c 0 ⟨n, hb⟩) (iblk m c 1 ⟨n, hb⟩) acc

/-- After point `t` the scratch holds, at entry `y`, 0 plus the addends of the points of `t`'s run up to `t`. -/
theorem scratch_after (c : Dev nD) (t : Fin cfg0.N) (y : S1024x1024.Idx) :
    (outsAt0 m c t.val t.isLt).2 y
      = 0 + ∑ s ∈ Finset.range (t.val % 4 + 1), addend m c (4 * (t.val / 4) + s) y := by
  rw [Value.soutsAt0_0_eq m c t]
  exact Pipeline.accAt_add_apply (β := EReal)
    (fun n h => Value.scAt0_0 m c n h (VS0_0.read (Elt Ideal) VS0_0.junk)) (Value.scAt0_0 m c)
    (fun _ => 0) (addend m c) (4 * (t.val / 4)) 3
    (fun h i => (congrFun (scratch_at_first m c _ h (by omega) _) i).trans
      ((step_at_point m c _ h Pieces.zeroBlock i).trans (congrArg (· + addend m c _ i) (Payload.zero_apply i))))
    (fun n h acc i h1 h2 => (congrFun (scratch_at_later m c n h (by omega) acc) i).trans (step_at_point m c n h acc i))
    (t.val % 4) (by omega) _ y

/-- At a write-back point (t ≡ 3 mod 4) the output block is a copy of the scratch after the point. -/
theorem output_is_scratch (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.output_last (F := Ideal) c (grid0.coords t) (ms0_0 t) (hs0_0 t) (ms0_1 t) (hs0_1 t) (ms0_2 t) (hs0_2 t) scM0_0 (Memref.isWhole_whole _) _ _ (iblk m c 0 t) (iblk m c 1 t) _).trans
    (Pieces.scratch_last (F := Ideal) c (grid0.coords t) (ms0_0 t) (hs0_0 t) (ms0_1 t) (hs0_1 t) (ms0_2 t) (hs0_2 t) scM0_0 (Memref.isWhole_whole _) _ _ (iblk m c 0 t) (iblk m c 1 t) _).symm

/-- So at a write-back point the output block's entry `y` is the product's entry at the place of the result array
    that entry is: row `1024 (t / 32) + y₀`, column `1024 (t / 4 % 8) + y₁`. -/
theorem output_at_writeback (c : Dev nD) (t : Fin cfg0.N) (h3 : t.val % 4 = 3) (y : S1024x1024.Idx) (j : S4096x8192.Idx)
    (hj0 : (j 0).val = 1024 * (t.val / 32) + (y 0).val) (hj1 : (j 1).val = 1024 * (t.val / 4 % 8) + (y 1).val) :
    (outsAt0 m c t.val t.isLt).1 y = Cert.MatProduct.product (X m c) (P m c) j := by
  have hN : t.val < 128 := lt_of_lt_of_eq t.isLt (show cfg0.N = 128 from N_0)
  rw [output_is_scratch m c t h3, scratch_after m c t y, h3, zero_add, Finset.sum_range,
    Cert.MatProduct.product_eq_parts]
  refine Finset.sum_congr rfl fun b _ => ?_
  have hb : b.val < 4 := b.isLt
  have er : rowAt (4 * (t.val / 4) + b.val) y = j 0 :=
    Fin.ext (by show 1024 * ((4 * (t.val / 4) + b.val) / 32 % 4) + (y 0).val = (j 0).val; omega)
  have ec : colAt (4 * (t.val / 4) + b.val) y = j 1 :=
    Fin.ext (by show 1024 * ((4 * (t.val / 4) + b.val) / 4 % 8) + (y 1).val = (j 1).val; omega)
  have eb : blockAt (4 * (t.val / 4) + b.val) = b :=
    Fin.ext (by show (4 * (t.val / 4) + b.val) % 4 = b.val; omega)
  unfold addend
  rw [er, ec, eb]

end Cert.KernelIdeal.Fold

end
-- ==== Proof.Result.lean ====
/-
  The kernel's result array after the run, at the ideal values: the product of the two argument arrays.

  The output window is written back at the points t ≡ 3 (mod 4), the last point of each run of four. What such a point
  writes back is the [1024, 1024] block (t / 32, t / 4 % 8) of the product. Every entry (r, c) of the [4096, 8192]
  result lies in the block of exactly such a point, t = 32 (r / 1024) + 4 (c / 1024) + 3, so the blocks written back
  cover the array and the array ends at the product.
-/
import proofs.«129398_j36318243455052_1_alg».proof.Proof.Fold
import Idealize.ShloMosaic.Lib.Pipeline.Value

noncomputable section

open Idealize.ShloMosaic Idealize.ShloMosaic.TcCoe Idealize.SL.Sem
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- What the result array holds after the run: the product of the arguments as launched. -/
abbrev result (c : Dev nD) : Buf (Elt Ideal) ((c : Thread nD τ).loc main_v0) :=
  Cert.MatProduct.product (Fold.X m c) (Fold.P m c)

/-- What a write-back point writes is its block of the product. -/
theorem writeback_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨-, -, -, -, e4, e5⟩ := Blocks.index_maps t
  rw [Value.flushed2]
  funext y
  show (outsAt0 m c t.val t.isLt).1 y = result m c (((cfg0.win 2).blk t).view.emb y)
  exact Fold.output_at_writeback m c t h3 y _
    (by show win0_2.index t (0 : Fin 2) * 1024 + 1 * (y 0).val = 1024 * (t.val / 32) + (y 0).val; rw [e4]; omega)
    (by show win0_2.index t (1 : Fin 2) * 1024 + 1 * (y 1).val = 1024 * (t.val / 4 % 8) + (y 1).val; rw [e5]; omega)

/-- Every entry of the result lies in the block of a write-back point: the last point of its blocks' run. -/
theorem covered (i : S4096x8192.Idx) :
    ∃ t : Fin cfg0.N, (cfg0.win 2).flush t = true ∧ i ∈ ((cfg0.win 2).blk t).view.set := by
  have h0 : (i 0).val < 4096 := (i 0).isLt
  have h1 : (i 1).val < 8192 := (i 1).isLt
  have hN : cfg0.N = 128 := N_0
  obtain ⟨t, ht⟩ : ∃ t : Fin cfg0.N, t.val = 32 * ((i 0).val / 1024) + 4 * ((i 1).val / 1024) + 3 :=
    ⟨⟨32 * ((i 0).val / 1024) + 4 * ((i 1).val / 1024) + 3, by rw [hN]; omega⟩, rfl⟩
  obtain ⟨-, -, -, -, e4, e5⟩ := Blocks.index_maps t
  refine ⟨t, (flush0_2 t).mpr (by omega), ?_⟩
  rw [Blocks.mem_outblock]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- The result array after the run is the product. -/
theorem final (c : Dev nD) : (dats m 0 c).arrAt 2 cfg0.N = result m c :=
  (dats m 0 c).arrAt_eq_of_cover 2 (result m c) (writeback_eq m c) covered

/-- The run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefValue.lean ====
/-
  The reference at the ideal values: its one operation, a contraction of the second axis of x with the first axis of p,
  is the matrix product entry by entry.
-/
import proofs.«129398_j36318243455052_1_alg».proof.Proof.Gen.ReferenceIdeal.Read
import proofs.«129398_j36318243455052_1_alg».proof.Proof.MatProduct

noncomputable section

open scoped BigOperators
open Idealize.ShloMosaic Idealize.ShloMosaic.ValueIdx

namespace Cert.ReferenceIdeal.RefValue

open Cert.ReferenceIdeal Cert.ReferenceIdeal.Gen

/-- The reference's result is the product of its arguments: at entry (r, c), `∑ k, x (r, k) * p (k, c)`. -/
theorem reference_is_product (x0 : (⟨S4096x8192, .f32⟩ : BufTy).Contents (Elt Ideal))
    (x1 : (⟨S8192x8192, .f32⟩ : BufTy).Contents (Elt Ideal)) :
    Read.val_main_v0 (F := Ideal) x0 x1 = Cert.MatProduct.product x0 x1 := by
  funext i
  have el : ∀ k : Fin 8192, Read.lidx_main_v0 i k = ix2 (i 0) k := fun k =>
    funext fun a => Fin.ext (by match a with | ⟨0, _⟩ => rfl | ⟨1, _⟩ => rfl)
  have er : ∀ k : Fin 8192, Read.ridx_main_v0 i k = ix2 k (i 1) := fun k =>
    funext fun a => Fin.ext (by match a with | ⟨0, _⟩ => rfl | ⟨1, _⟩ => rfl)
  rw [Read.val_main_v0_apply]
  unfold Cert.MatProduct.product
  simp only [el, er]
  rfl

end Cert.ReferenceIdeal.RefValue

end
-- ==== Proof.lean ====
/-
  A [4096, 8192] matrix x times an [8192, 8192] matrix p, computed two ways, gives the same [4096, 8192] array over the
  extended reals.

  The kernel tiles the product: for each [1024, 1024] block of the result it runs through the four [1024, 2048] × [2048, 1024]
  pairs of blocks along the contraction axis, starting a scratch accumulator at zero and adding each pair's product to
  it, and writes the accumulator out after the fourth. The reference contracts the whole axis at once. At the ideal
  values a change of float format is the identity and both matrix products are exact sums of products, so entry (r, c)
  of the kernel's result is ((((0 + S₀) + S₁) + S₂) + S₃), where S_b is the sum of x (r, k) · p (k, c) over the 2048
  coordinates k of contraction block b, and entry (r, c) of the reference's is the sum over all 8192 coordinates.
  These agree because a sum over 8192 consecutive coordinates is the sum of its four consecutive blocks of 2048
  (Proof/MatProduct.lean); that uses only commutativity and associativity of addition, which hold on the extended reals
  without any finiteness assumption, so the precondition is never opened.

  The modules: MatProduct (the product and the block law), Pieces (what one run of the body leaves, case by case),
  Payload (the body's arithmetic at an entry), Blocks (where each window's block sits at a grid point), Fold (the
  accumulator over a run of four points), Result (the result array after the run), RefValue (the reference is the
  product). The three programs run, fault-free, with their arguments unchanged; the idealization rewrote nothing; and
  both idealized programs end at the product of arguments that agree.
-/
import proofs.«129398_j36318243455052_1_alg».proof.Defs
import proofs.«129398_j36318243455052_1_alg».proof.Proof.Gen.Kernel
import proofs.«129398_j36318243455052_1_alg».proof.Proof.Gen.Kernel.Skeleton
import proofs.«129398_j36318243455052_1_alg».proof.Proof.Gen.Kernel.Launch
import proofs.«129398_j36318243455052_1_alg».proof.Proof.Gen.Kernel.Points
import proofs.«129398_j36318243455052_1_alg».proof.Proof.Gen.Kernel.Frame
import proofs.«129398_j36318243455052_1_alg».proof.Proof.Gen.KernelIdeal
import proofs.«129398_j36318243455052_1_alg».proof.Proof.Gen.KernelIdeal.Skeleton
import proofs.«129398_j36318243455052_1_alg».proof.Proof.Gen.KernelIdeal.Launch
import proofs.«129398_j36318243455052_1_alg».proof.Proof.Gen.KernelIdeal.Points
import proofs.«129398_j36318243455052_1_alg».proof.Proof.Gen.KernelIdeal.Frame
import proofs.«129398_j36318243455052_1_alg».proof.Proof.Gen.ReferenceIdeal
import proofs.«129398_j36318243455052_1_alg».proof.Proof.Gen.Pre_finite_inputs
import proofs.«129398_j36318243455052_1_alg».proof.Proof.Gen.KernelIdeal.Value
import proofs.«129398_j36318243455052_1_alg».proof.Proof.Gen.ReferenceIdeal.Run
import proofs.«129398_j36318243455052_1_alg».proof.Proof.Gen.ReferenceIdeal.Read
import proofs.«129398_j36318243455052_1_alg».proof.Proof.Result
import proofs.«129398_j36318243455052_1_alg».proof.Proof.RefValue
import Idealize.ShloMosaic.Adequacy
import Idealize.ShloMosaic.Init

noncomputable section

namespace Cert.Proof

open Idealize.ShloMosaic Idealize.SL.Sem Cert.Kernel

/-- The kernel as printed runs, fault-free, and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, the kernel ends at the product of its arguments and the reference at the product of its
    own: one array. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefValue.reference_is_product _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
